-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x256 : Shape := ⟨2, ![4096, 256]⟩
abbrev S4096 : Shape := ⟨1, ![4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x256 .f32) (main_arg2 : FVec F S4096 .f32) (main_arg3 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x256 : Shape := ⟨2, ![4096, 256]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S8192x4096 : Shape := ⟨2, ![8192, 4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4096x512 : Shape := ⟨2, ![4096, 512]⟩

abbrev nBuf : Space → Nat
  | .hbm => 31
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x256, .f32⟩
  | .hbm, ⟨2, _⟩ => ⟨S4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S1, .i32⟩
  | .hbm, ⟨13, _⟩ => ⟨S_, .i32⟩
  | .hbm, ⟨14, _⟩ => ⟨S4096x4096x1, .i32⟩
  | .hbm, ⟨15, _⟩ => ⟨S4096x4096x1, .i1⟩
  | .hbm, ⟨16, _⟩ => ⟨S1x1x1, .i32⟩
  | .hbm, ⟨17, _⟩ => ⟨S4096x4096x1, .i32⟩
  | .hbm, ⟨18, _⟩ => ⟨S4096x4096x1, .i1⟩
  | .hbm, ⟨19, _⟩ => ⟨S4096x4096x1, .i1⟩
  | .hbm, ⟨20, _⟩ => ⟨S_, .i1⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S4x2048x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  gather_S4096x256_S4096x4096x1_S4096x4096_n_1_0_0_1_2_11_wf : GatherDims.WF S4096x256 S4096x4096x1 S4096x4096 [] [1] [0] [1] [0] 2 ![1, 1]
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def gather_S4096x256_S4096x4096x1_S4096x4096_n_1_0_0_1_2_11 : GatherDims S4096x256 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x256_S4096x4096x1_S4096x4096_n_1_0_0_1_2_11_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x256 : Shape := ⟨2, ![4096, 256]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S16777216 : Shape := ⟨1, ![16777216]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x256, .f32⟩
  | .hbm, ⟨2, _⟩ => ⟨S4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S1, .i32⟩
  | .hbm, ⟨13, _⟩ => ⟨S_, .i32⟩
  | .hbm, ⟨14, _⟩ => ⟨S4096x4096x1, .i32⟩
  | .hbm, ⟨15, _⟩ => ⟨S4096x4096x1, .i1⟩
  | .hbm, ⟨16, _⟩ => ⟨S1x1x1, .i32⟩
  | .hbm, ⟨17, _⟩ => ⟨S4096x4096x1, .i32⟩
  | .hbm, ⟨18, _⟩ => ⟨S4096x4096x1, .i1⟩
  | .hbm, ⟨19, _⟩ => ⟨S4096x4096x1, .i1⟩
  | .hbm, ⟨20, _⟩ => ⟨S_, .i1⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S16777216, .f32⟩
  | .hbm, ⟨27, _⟩ => ⟨S4096x4096, .f32⟩
  | .hbm, ⟨28, _⟩ => ⟨S4x2048x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  shapeCasts_S4096x4096_S16777216 : S4096x4096.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x256_S4096x4096x1_S4096x4096_n_1_0_0_1_2_11_wf : GatherDims.WF S4096x256 S4096x4096x1 S4096x4096 [] [1] [0] [1] [0] 2 ![1, 1]
  dot_S4x2048x4096_S4096x4096_S4x2048x4096_2_1_01_0_n_n_wf : DotDims.WF S4x2048x4096 S4096x4096 S4x2048x4096 [2] [1] [0, 1] [0] [] []

variable [Facts₀]

def gather_S4096x256_S4096x4096x1_S4096x4096_n_1_0_0_1_2_11 : GatherDims S4096x256 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x256_S4096x4096x1_S4096x4096_n_1_0_0_1_2_11_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Lookup.lean ====
/-
  The weight matrix both programs build: a per-row lookup in a codebook.

  Row `o` of the codebook has 256 entries; entry (o, k) of the index matrix says which of them is weight (o, k). An
  index below zero counts from the row's end (256 is added to it); an index that is then still outside 0 … 255 selects
  nothing, and the weight there is the quiet-NaN word instead. Both programs spell this lookup with the same
  operations on the same two arguments, so it is named once here and never opened: everything else in this
  certificate takes the looked-up matrix as an opaque array.

  It is named in the three steps the programs compute it in — the wrapped indices (with the trailing unit axis the
  lookup takes them in), the test that a wrapped index is in range, and the pick itself — so that each step of a
  program's operation list can be read back on its own.
-/
import proofs.«175161_j19799799235325_1_alg».proof.Proof.Gen.ReferenceIdeal

noncomputable section

namespace Cert.ReferenceIdeal.Lookup

open Cert.ReferenceIdeal Cert.ReferenceIdeal.Gen Idealize.ShloMosaic Idealize.ShloMosaic.TcCoe

variable {F : FTy → Type} [FloatOps F]

/-- The indices with the negative ones counted from the row's end, and a trailing unit axis. -/
def wrappedCol (ix : (⟨S4096x4096, .i32⟩ : BufTy).Contents (Elt F)) : (⟨S4096x4096x1, .i32⟩ : BufTy).Contents (Elt F) :=
  shapeCast _
    (select (cmpi .slt ix (broadcastInDim S4096x4096 ![] bcast_S_S4096x4096 (constantI S_ 32 0#32)))
      (addi ix (broadcastInDim S4096x4096 ![] bcast_S_S4096x4096 (constantI S_ 32 256#32))) ix)
    shapeCasts_S4096x4096_S4096x4096x1

/-- Where an index (with its trailing unit axis) lies in 0 … 255. -/
def inRange (col : (⟨S4096x4096x1, .i32⟩ : BufTy).Contents (Elt F)) : (⟨S4096x4096, .i1⟩ : BufTy).Contents (Elt F) :=
  Host.reduce IntOp.andi
    (andi (cmpi .sge col (broadcastInDim S4096x4096x1 ![] bcast_S_S4096x4096x1 (constantI S_ 32 0#32)))
      (cmpi .sle col
        (broadcastInDim S4096x4096x1 ![0, 1, 2] bcast_S1x1x1_S4096x4096x1_0_1_2 (broadcastInDim S1x1x1 ![2] bcast_S1_S1x1x1_2 (constantI S1 32 255#32)))))
    (constantI S_ 1 1#1) reducesTo_S4096x4096x1_S4096x4096_d2 h_S_

/-- The pick: the codebook's row entry at the index where `ok` says so, the quiet-NaN word elsewhere. -/
def pick (cb : (⟨S4096x256, .f32⟩ : BufTy).Contents (Elt F)) (col : (⟨S4096x4096x1, .i32⟩ : BufTy).Contents (Elt F))
    (ok : (⟨S4096x4096, .i1⟩ : BufTy).Contents (Elt F)) : (⟨S4096x4096, .f32⟩ : BufTy).Contents (Elt F) :=
  select ok (Host.gather gather_S4096x256_S4096x4096x1_S4096x4096_n_1_0_0_1_2_11 cb col)
    (broadcastInDim S4096x4096 ![] bcast_S_S4096x4096 (constant S_ .f32 0x7FC00000#32))

/-- THE WEIGHT: entry (o, k) is the codebook's row `o` at the wrapped index (o, k) where that is in range, the
    quiet-NaN word elsewhere. -/
def weight (cb : (⟨S4096x256, .f32⟩ : BufTy).Contents (Elt F)) (ix : (⟨S4096x4096, .i32⟩ : BufTy).Contents (Elt F)) :
    (⟨S4096x4096, .f32⟩ : BufTy).Contents (Elt F) :=
  pick cb (wrappedCol (F := F) ix) (inRange (F := F) (wrappedCol (F := F) ix))

end Cert.ReferenceIdeal.Lookup

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.RefRun.lean ====
/-
  The reference's run, read back.

  The reference is a straight line of host operations: the codebook lookup (the operations of the outlined lookup
  function stand in its call's place), the flattening and re-folding of the looked-up weight, the contraction of the
  input's last axis with the weight's second axis, the bias broadcast along the batch and sequence axes, and the sum.
  Every weakly fair execution ends with the result buffer at those operations' composed value of the arguments, the
  arguments unchanged. The lookup's part of that value is the one definition `Lookup.weight`; what follows it is
  `contractAddBias`.
-/
import proofs.«175161_j19799799235325_1_alg».proof.Proof.Gen.ReferenceIdeal
import proofs.«175161_j19799799235325_1_alg».proof.Proof.Lookup
import proofs.«175161_j19799799235325_1_alg».proof.Proof.LibTypedRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- What the reference does with the looked-up weight `w`: flatten and re-fold it, contract the input's last axis
    with its second axis, and add the bias broadcast along the two leading axes. -/
def contractAddBias (x : (⟨S4x2048x4096, .f32⟩ : BufTy).Contents (Elt F)) (w : (⟨S4096x4096, .f32⟩ : BufTy).Contents (Elt F))
    (b : (⟨S4096, .f32⟩ : BufTy).Contents (Elt F)) : (⟨S4x2048x4096, .f32⟩ : BufTy).Contents (Elt F) :=
  addf (Host.dotGeneral dot_S4x2048x4096_S4096x4096_S4x2048x4096_2_1_01_0_n_n none x
      (shapeCast _ (shapeCast _ w shapeCasts_S4096x4096_S16777216) shapeCasts_S16777216_S4096x4096))
    (broadcastInDim S4x2048x4096 ![0, 1, 2] bcast_S1x1x4096_S4x2048x4096_0_1_2 (broadcastInDim S1x1x4096 ![2] bcast_S4096_S1x1x4096_2 b))

/-- The reference's host operations, in order. -/
abbrev ops : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4096x4096, .i32⟩) main_call0_v0) (broadcastInDim S4096x4096 ![] bcast_S_S4096x4096),
    TRef.binary (TRef.of (T := ⟨S4096x4096, .i32⟩) main_arg3) (TRef.of (T := ⟨S4096x4096, .i32⟩) main_call0_v0) (TRef.of (T := ⟨S4096x4096, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S4096x4096, .i32⟩) main_call0_v2) (broadcastInDim S4096x4096 ![] bcast_S_S4096x4096),
    TRef.binary (TRef.of (T := ⟨S4096x4096, .i32⟩) main_arg3) (TRef.of (T := ⟨S4096x4096, .i32⟩) main_call0_v2) (TRef.of (T := ⟨S4096x4096, .i32⟩) main_call0_v3) addi,
    TRef.ternary (TRef.of (T := ⟨S4096x4096, .i1⟩) main_call0_v1) (TRef.of (T := ⟨S4096x4096, .i32⟩) main_call0_v3) (TRef.of (T := ⟨S4096x4096, .i32⟩) main_arg3) (TRef.of (T := ⟨S4096x4096, .i32⟩) main_call0_v4) select,
    TRef.reshape (TRef.of (T := ⟨S4096x4096, .i32⟩) main_call0_v4) (TRef.of (T := ⟨S4096x4096x1, .i32⟩) main_call0_v5) rfl shapeCasts_S4096x4096_S4096x4096x1,
    TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S4096x4096x1, .i32⟩) main_call0_v6) (broadcastInDim S4096x4096x1 ![] bcast_S_S4096x4096x1),
    TRef.binary (TRef.of (T := ⟨S4096x4096x1, .i32⟩) main_call0_v5) (TRef.of (T := ⟨S4096x4096x1, .i32⟩) main_call0_v6) (TRef.of (T := ⟨S4096x4096x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S4096x4096x1, .i32⟩) main_call0_v9) (broadcastInDim S4096x4096x1 ![0, 1, 2] bcast_S1x1x1_S4096x4096x1_0_1_2),
    TRef.binary (TRef.of (T := ⟨S4096x4096x1, .i32⟩) main_call0_v5) (TRef.of (T := ⟨S4096x4096x1, .i32⟩) main_call0_v9) (TRef.of (T := ⟨S4096x4096x1, .i1⟩) main_call0_v10) (cmpi .sle),
    TRef.binary (TRef.of (T := ⟨S4096x4096x1, .i1⟩) main_call0_v7) (TRef.of (T := ⟨S4096x4096x1, .i1⟩) main_call0_v10) (TRef.of (T := ⟨S4096x4096x1, .i1⟩) main_call0_v11) andi,
    TRef.nullary (TRef.of (T := ⟨S_, .i1⟩) main_call0_c_3) (constantI S_ 1 1#1),
    TRef.binary (TRef.of (T := ⟨S4096x4096x1, .i1⟩) main_call0_v11) (TRef.of (T := ⟨S_, .i1⟩) main_call0_c_3) (TRef.of (T := ⟨S4096x4096, .i1⟩) main_call0_v12) (fun x v => Host.reduce IntOp.andi x v reducesTo_S4096x4096x1_S4096x4096_d2 h_S_),
    TRef.binary (TRef.of (T := ⟨S4096x256, .f32⟩) main_arg1) (TRef.of (T := ⟨S4096x4096x1, .i32⟩) main_call0_v5) (TRef.of (T := ⟨S4096x4096, .f32⟩) main_call0_v13) (fun x i => Host.gather gather_S4096x256_S4096x4096x1_S4096x4096_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S4096x4096, .f32⟩) main_call0_v14) (broadcastInDim S4096x4096 ![] bcast_S_S4096x4096),
    TRef.ternary (TRef.of (T := ⟨S4096x4096, .i1⟩) main_call0_v12) (TRef.of (T := ⟨S4096x4096, .f32⟩) main_call0_v13) (TRef.of (T := ⟨S4096x4096, .f32⟩) main_call0_v14) (TRef.of (T := ⟨S4096x4096, .f32⟩) main_v0) select,
    reshape main_v0 main_v1 rfl shapeCasts_S4096x4096_S16777216,
    reshape main_v1 main_v2 rfl shapeCasts_S16777216_S4096x4096,
    binary main_arg0 main_v2 main_v3 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v4 (broadcastInDim S1x1x4096 ![2] bcast_S4096_S1x1x4096_2 : (⟨S4096, .f32⟩ : BufTy).Contents (Elt F) → (⟨S1x1x4096, .f32⟩ : BufTy).Contents (Elt F)),
    unary main_v4 main_v5 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v3 main_v5 main_v6 (addf : (⟨S4x2048x4096, .f32⟩ : BufTy).Contents (Elt F) → (⟨S4x2048x4096, .f32⟩ : BufTy).Contents (Elt F) → (⟨S4x2048x4096, .f32⟩ : BufTy).Contents (Elt F)) ]

/-- The printed program is that line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., binary_bufs_sub .., unary_bufs_sub .., unary_bufs_sub .., binary_bufs_sub ..⟩

/-! ## The line in four stretches, each read back on its own

The value of the result buffer after the line is composed from four shorter ones: the wrapped indices after the index
chain, the range test after the next ten operations, the pick after the next four, and the result after what follows
the lookup — each a function of the few buffers its stretch reads, every other buffer passing through unchanged. -/

/-- The operations that wrap the indices and give them their trailing unit axis. -/
abbrev indexOps : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4096x4096, .i32⟩) main_call0_v0) (broadcastInDim S4096x4096 ![] bcast_S_S4096x4096),
    TRef.binary (TRef.of (T := ⟨S4096x4096, .i32⟩) main_arg3) (TRef.of (T := ⟨S4096x4096, .i32⟩) main_call0_v0) (TRef.of (T := ⟨S4096x4096, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S4096x4096, .i32⟩) main_call0_v2) (broadcastInDim S4096x4096 ![] bcast_S_S4096x4096),
    TRef.binary (TRef.of (T := ⟨S4096x4096, .i32⟩) main_arg3) (TRef.of (T := ⟨S4096x4096, .i32⟩) main_call0_v2) (TRef.of (T := ⟨S4096x4096, .i32⟩) main_call0_v3) addi,
    TRef.ternary (TRef.of (T := ⟨S4096x4096, .i1⟩) main_call0_v1) (TRef.of (T := ⟨S4096x4096, .i32⟩) main_call0_v3) (TRef.of (T := ⟨S4096x4096, .i32⟩) main_arg3) (TRef.of (T := ⟨S4096x4096, .i32⟩) main_call0_v4) select,
    TRef.reshape (TRef.of (T := ⟨S4096x4096, .i32⟩) main_call0_v4) (TRef.of (T := ⟨S4096x4096x1, .i32⟩) main_call0_v5) rfl shapeCasts_S4096x4096_S4096x4096x1 ]
/-- The operations that test the wrapped indices' range. -/
abbrev rangeOps : List (HloOp τ sig (Elt F)) :=
  [ TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S4096x4096x1, .i32⟩) main_call0_v6) (broadcastInDim S4096x4096x1 ![] bcast_S_S4096x4096x1),
    TRef.binary (TRef.of (T := ⟨S4096x4096x1, .i32⟩) main_call0_v5) (TRef.of (T := ⟨S4096x4096x1, .i32⟩) main_call0_v6) (TRef.of (T := ⟨S4096x4096x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S4096x4096x1, .i32⟩) main_call0_v9) (broadcastInDim S4096x4096x1 ![0, 1, 2] bcast_S1x1x1_S4096x4096x1_0_1_2),
    TRef.binary (TRef.of (T := ⟨S4096x4096x1, .i32⟩) main_call0_v5) (TRef.of (T := ⟨S4096x4096x1, .i32⟩) main_call0_v9) (TRef.of (T := ⟨S4096x4096x1, .i1⟩) main_call0_v10) (cmpi .sle),
    TRef.binary (TRef.of (T := ⟨S4096x4096x1, .i1⟩) main_call0_v7) (TRef.of (T := ⟨S4096x4096x1, .i1⟩) main_call0_v10) (TRef.of (T := ⟨S4096x4096x1, .i1⟩) main_call0_v11) andi,
    TRef.nullary (TRef.of (T := ⟨S_, .i1⟩) main_call0_c_3) (constantI S_ 1 1#1),
    TRef.binary (TRef.of (T := ⟨S4096x4096x1, .i1⟩) main_call0_v11) (TRef.of (T := ⟨S_, .i1⟩) main_call0_c_3) (TRef.of (T := ⟨S4096x4096, .i1⟩) main_call0_v12) (fun x v => Host.reduce IntOp.andi x v reducesTo_S4096x4096x1_S4096x4096_d2 h_S_) ]
/-- The lookup itself and the choice between its value and the quiet-NaN word. -/
abbrev pickOps : List (HloOp τ sig (Elt F)) :=
  [ TRef.binary (TRef.of (T := ⟨S4096x256, .f32⟩) main_arg1) (TRef.of (T := ⟨S4096x4096x1, .i32⟩) main_call0_v5) (TRef.of (T := ⟨S4096x4096, .f32⟩) main_call0_v13) (fun x i => Host.gather gather_S4096x256_S4096x4096x1_S4096x4096_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S4096x4096, .f32⟩) main_call0_v14) (broadcastInDim S4096x4096 ![] bcast_S_S4096x4096),
    TRef.ternary (TRef.of (T := ⟨S4096x4096, .i1⟩) main_call0_v12) (TRef.of (T := ⟨S4096x4096, .f32⟩) main_call0_v13) (TRef.of (T := ⟨S4096x4096, .f32⟩) main_call0_v14) (TRef.of (T := ⟨S4096x4096, .f32⟩) main_v0) select ]
/-- What follows the lookup. -/
abbrev tailOps : List (HloOp τ sig (Elt F)) :=
  [ reshape main_v0 main_v1 rfl shapeCasts_S4096x4096_S16777216,
    reshape main_v1 main_v2 rfl shapeCasts_S16777216_S4096x4096,
    binary main_arg0 main_v2 main_v3 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v4 (broadcastInDim S1x1x4096 ![2] bcast_S4096_S1x1x4096_2 : (⟨S4096, .f32⟩ : BufTy).Contents (Elt F) → (⟨S1x1x4096, .f32⟩ : BufTy).Contents (Elt F)),
    unary main_v4 main_v5 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v3 main_v5 main_v6 (addf : (⟨S4x2048x4096, .f32⟩ : BufTy).Contents (Elt F) → (⟨S4x2048x4096, .f32⟩ : BufTy).Contents (Elt F) → (⟨S4x2048x4096, .f32⟩ : BufTy).Contents (Elt F)) ]

/-- The index chain: the wrapped indices from the index argument; the float arguments pass through. -/
theorem index_col (V : Valuation τ sig (Elt F)) :
    after indexOps V (Proc.devRef .tc main_call0_v5) = Lookup.wrappedCol (F := F) (V (Proc.devRef .tc main_arg3)) := by
  after_results_simp; rfl
theorem index_arg0 (V : Valuation τ sig (Elt F)) : after indexOps V (Proc.devRef .tc main_arg0) = V (Proc.devRef .tc main_arg0) := by after_results_simp
theorem index_arg1 (V : Valuation τ sig (Elt F)) : after indexOps V (Proc.devRef .tc main_arg1) = V (Proc.devRef .tc main_arg1) := by after_results_simp
theorem index_arg2 (V : Valuation τ sig (Elt F)) : after indexOps V (Proc.devRef .tc main_arg2) = V (Proc.devRef .tc main_arg2) := by after_results_simp

/-- A typed reference's move of the wrapped indices, the codebook or the range test from the buffer's type is the identity. -/
theorem col_ofBuf (W : (⟨S4096x4096x1, .i32⟩ : BufTy).Contents (Elt F)) :
    (TRef.of (T := ⟨S4096x4096x1, .i32⟩) main_call0_v5).ofBuf W = W := rfl
theorem codebook_ofBuf (W : (⟨S4096x256, .f32⟩ : BufTy).Contents (Elt F)) :
    (TRef.of (T := ⟨S4096x256, .f32⟩) main_arg1).ofBuf W = W := rfl
theorem ok_ofBuf (W : (⟨S4096x4096, .i1⟩ : BufTy).Contents (Elt F)) :
    (TRef.of (T := ⟨S4096x4096, .i1⟩) main_call0_v12).ofBuf W = W := rfl

/-- The range test, from the wrapped indices; they and the float arguments pass through. -/
theorem range_ok (V : Valuation τ sig (Elt F)) :
    after rangeOps V (Proc.devRef .tc main_call0_v12) = Lookup.inRange (F := F) (V (Proc.devRef .tc main_call0_v5)) := by
  after_results_simp
  simp only [TypedRef.ofBuf_toBuf]
  rw [col_ofBuf]
  unfold Lookup.inRange
  exact TypedRef.toBuf_eq _ _ _ HEq.rfl
theorem range_col (V : Valuation τ sig (Elt F)) : after rangeOps V (Proc.devRef .tc main_call0_v5) = V (Proc.devRef .tc main_call0_v5) := by after_results_simp
theorem range_arg0 (V : Valuation τ sig (Elt F)) : after rangeOps V (Proc.devRef .tc main_arg0) = V (Proc.devRef .tc main_arg0) := by after_results_simp
theorem range_arg1 (V : Valuation τ sig (Elt F)) : after rangeOps V (Proc.devRef .tc main_arg1) = V (Proc.devRef .tc main_arg1) := by after_results_simp
theorem range_arg2 (V : Valuation τ sig (Elt F)) : after rangeOps V (Proc.devRef .tc main_arg2) = V (Proc.devRef .tc main_arg2) := by after_results_simp

/-- The pick, from the codebook, the wrapped indices and the range test; the input and the bias pass through. -/
theorem pick_weight (V : Valuation τ sig (Elt F)) :
    after pickOps V (Proc.devRef .tc main_v0)
      = Lookup.pick (F := F) (V (Proc.devRef .tc main_arg1)) (V (Proc.devRef .tc main_call0_v5)) (V (Proc.devRef .tc main_call0_v12)) := by
  after_results_simp
  simp only [TypedRef.ofBuf_toBuf]
  rw [col_ofBuf, codebook_ofBuf, ok_ofBuf]
  unfold Lookup.pick
  exact TypedRef.toBuf_eq _ _ _ HEq.rfl
theorem pick_arg0 (V : Valuation τ sig (Elt F)) : after pickOps V (Proc.devRef .tc main_arg0) = V (Proc.devRef .tc main_arg0) := by after_results_simp
theorem pick_arg2 (V : Valuation τ sig (Elt F)) : after pickOps V (Proc.devRef .tc main_arg2) = V (Proc.devRef .tc main_arg2) := by after_results_simp

/-- What follows the lookup, from the input, the looked-up weight and the bias. -/
theorem tail_result (V : Valuation τ sig (Elt F)) :
    after tailOps V (Proc.devRef .tc main_v6)
      = contractAddBias (F := F) (V (Proc.devRef .tc main_arg0)) (V (Proc.devRef .tc main_v0)) (V (Proc.devRef .tc main_arg2)) := by
  after_results_simp; rfl

/-- The result buffer after the whole line, from any contents `V`: the composed value of the three float arguments
    and the index argument as `V` has them. -/
theorem result_after (V : Valuation τ sig (Elt F)) :
    after ops V (Proc.devRef .tc main_v6)
      = contractAddBias (F := F) (V (Proc.devRef .tc main_arg0))
          (Lookup.weight (F := F) (V (Proc.devRef .tc main_arg1)) (V (Proc.devRef .tc main_arg3))) (V (Proc.devRef .tc main_arg2)) := by
  show after (indexOps ++ (rangeOps ++ (pickOps ++ tailOps))) V (Proc.devRef .tc main_v6) = _
  rw [TypedRef.after_append, TypedRef.after_append, TypedRef.after_append, tail_result, pick_weight, pick_arg0, pick_arg2,
    range_ok, range_col, range_arg0, range_arg1, range_arg2, index_col, index_arg0, index_arg1, index_arg2]
  rfl

/-- No operation of the line writes an argument. -/
theorem arg0_after (V : Valuation τ sig (Elt F)) : after ops V (Proc.devRef .tc main_arg0) = V (Proc.devRef .tc main_arg0) := by
  after_results_simp
theorem arg1_after (V : Valuation τ sig (Elt F)) : after ops V (Proc.devRef .tc main_arg1) = V (Proc.devRef .tc main_arg1) := by
  after_results_simp
theorem arg2_after (V : Valuation τ sig (Elt F)) : after ops V (Proc.devRef .tc main_arg2) = V (Proc.devRef .tc main_arg2) := by
  after_results_simp
theorem arg3_after (V : Valuation τ sig (Elt F)) : after ops V (Proc.devRef .tc main_arg3) = V (Proc.devRef .tc main_arg3) := by
  after_results_simp

/-- THE RUN: on every device, from any memory with zero counters, every weakly fair execution of the reference
    terminates with the result at `contractAddBias` of the input, the looked-up weight and the bias, and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = contractAddBias (F := F) (m ((c.tc : Thread nD τ).loc main_arg0))
            (Lookup.weight (F := F) (m ((c.tc : Thread nD τ).loc main_arg1)) (m ((c.tc : Thread nD τ).loc main_arg3)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (result_after _),
      (h c main_arg0).trans (arg0_after _), (h c main_arg1).trans (arg1_after _),
      (h c main_arg2).trans (arg2_after _), (h c main_arg3).trans (arg3_after _)⟩)
    (run_seq scopedRefs_eq scopedSems_eq defs main (fun _ => ops) main_eq (fun _ => ops_sub) m ρ)

end Cert.ReferenceIdeal.RefRun

end
-- ==== Proof.Spec.lean ====
/-
  The function both programs compute, on the extended reals: an affine layer.

  For an input `x` of shape [4, 2048, 4096], a weight matrix `w` of shape [4096, 4096] (one row per output feature)
  and a bias `b` of shape [4096], entry (b, s, o) of the result is

      (∑ k : Fin 4096, x (b, s, k) · w (o, k)) + bias o,

  the contraction written over the one contracted coordinate. Nothing here depends on where the weight matrix comes
  from: both programs build it by the same per-row lookup in a codebook, and that lookup stays an opaque argument.
-/
import Idealize.ShloMosaic.PureOps.Ideal
import Idealize.ShloMosaic.Lib.ValueIdx

noncomputable section

namespace Cert.Affine

open Idealize.ShloMosaic Idealize.ShloMosaic.ValueIdx

/-- The input's shape, [batch, sequence, input feature]. -/
abbrev SIn : Shape := ⟨3, ![4, 2048, 4096]⟩
/-- The weight's shape, [output feature, input feature]. -/
abbrev SWeight : Shape := ⟨2, ![4096, 4096]⟩
/-- The bias's shape, [output feature]. -/
abbrev SBias : Shape := ⟨1, ![4096]⟩

/-- `x · wᵀ + b`: the row (b, s) of `x` against row `o` of `w`, plus the bias of output feature `o`. -/
def affine (x : SIn.Idx → EReal) (w : SWeight.Idx → EReal) (b : SBias.Idx → EReal) : SIn.Idx → EReal :=
  fun i => (∑ k : Fin 4096, x (ix3 (i 0) (i 1) k) * w (ix2 (i 2) k)) + b (ix1 (i 2))

end Cert.Affine

end
-- ==== Proof.RefAffine.lean ====
/-
  What the reference does with the looked-up weight is the affine layer.

  Three readings at an entry (b, s, o) of the result:
  * flattening the [4096, 4096] weight to one axis and folding it back is the identity: entry (o, k) sits at position
    o · 4096 + k of the flat array, and that position of the flat array is entry (o, k) of the folded one;
  * the contraction of the input's last axis with the weight's second axis is the sum over the one contracted
    coordinate k of x (b, s, k) · w (o, k): the two batch-free leading axes of the input and the weight's first axis
    are read at the entry's own coordinates;
  * the bias, given a pair of leading unit axes and then repeated along them, is read at o.
-/
import proofs.«175161_j19799799235325_1_alg».proof.Proof.RefRun
import proofs.«175161_j19799799235325_1_alg».proof.Proof.Spec
import Idealize.ShloMosaic.Lib.Pipeline.Value
import Idealize.ShloMosaic.Lib.ValueIdx
import Idealize.ShloMosaic.PureOps.Ideal.Laws

noncomputable section

namespace Cert.ReferenceIdeal.RefAffine

open Cert.ReferenceIdeal Cert.ReferenceIdeal.Gen Cert.ReferenceIdeal.RefRun
open Idealize.ShloMosaic Idealize.ShloMosaic.TcCoe Idealize.ShloMosaic.ValueIdx

/-- The contraction's dimension numbers: [4, 2048, 4096] against [4096, 4096], the third axis with the second. -/
abbrev dims : DotDims S4x2048x4096 S4096x4096 S4x2048x4096 := dot_S4x2048x4096_S4096x4096_S4x2048x4096_2_1_01_0_n_n

/-- Flattening the weight to one axis and folding it back changes nothing. -/
theorem refold (w : FVec Ideal S4096x4096 .f32) :
    shapeCast S4096x4096 (shapeCast S16777216 w shapeCasts_S4096x4096_S16777216) shapeCasts_S16777216_S4096x4096 = w := by
  funext j
  have h0 : (j 0).val < 4096 := (j 0).isLt
  have h1 : (j 1).val < 4096 := (j 1).isLt
  refine (shapeCast_apply (shapeCast S16777216 w shapeCasts_S4096x4096_S16777216) shapeCasts_S16777216_S4096x4096 j
      (ix1 (⟨(j 0).val * 4096 + (j 1).val, by omega⟩ : Fin 16777216)) ?_).trans
    (shapeCast_apply w shapeCasts_S4096x4096_S16777216 _ j ?_)
  · rewrite [Shape.rowMajor_val_one, Shape.rowMajor_val_two]; rfl
  · rewrite [Shape.rowMajor_val_two, Shape.rowMajor_val_one]; rfl

/-- The input is read on its batch axis at the entry's batch coordinate, -/
theorem lhs_batch (i : S4x2048x4096.Idx) (q : dims.contr.Idx) : (dims.lhsIdx i q 0).val = (i 0).val := by
  unfold DotDims.lhsIdx
  rw [dif_neg (show ¬(0 : Fin S4x2048x4096.rank) ∈ dims.lhsBatch by decide),
    dif_pos (show (0 : Fin S4x2048x4096.rank) ∈ dims.lhsNonContracting by decide)]
  rfl
/-- on its sequence axis at the entry's sequence coordinate, -/
theorem lhs_seq (i : S4x2048x4096.Idx) (q : dims.contr.Idx) : (dims.lhsIdx i q 1).val = (i 1).val := by
  unfold DotDims.lhsIdx
  rw [dif_neg (show ¬(1 : Fin S4x2048x4096.rank) ∈ dims.lhsBatch by decide),
    dif_pos (show (1 : Fin S4x2048x4096.rank) ∈ dims.lhsNonContracting by decide)]
  rfl
/-- and the weight on its row axis at the entry's output feature. -/
theorem rhs_row (i : S4x2048x4096.Idx) (q : dims.contr.Idx) : (dims.rhsIdx i q 0).val = (i 2).val := by
  unfold DotDims.rhsIdx
  rw [dif_neg (show ¬(0 : Fin S4096x4096.rank) ∈ dims.rhsBatch by decide),
    dif_pos (show (0 : Fin S4096x4096.rank) ∈ dims.rhsNonContracting by decide)]
  rfl

/-- THE CONTRACTION AT AN ENTRY: the sum over the contracted coordinate. -/
theorem contract_apply (x : FVec Ideal S4x2048x4096 .f32) (w : FVec Ideal S4096x4096 .f32) (i : S4x2048x4096.Idx) :
    Host.dotGeneral (F := Ideal) dims none x w i = ∑ k : Fin 4096, x (ix3 (i 0) (i 1) k) * w (ix2 (i 2) k) := by
  simp only [Host.dotGeneral]
  rw [Ideal.dotGeneral_apply, ← Equiv.sum_comp (contrEquiv1 dims 4096 rfl rfl).symm]
  refine Finset.sum_congr rfl fun k _ => ?_
  have hk := contrEquiv1_symm_val dims 4096 rfl rfl k
  have el : dims.lhsIdx i ((contrEquiv1 dims 4096 rfl rfl).symm k) = ix3 (i 0) (i 1) k := funext fun a => Fin.ext (by
    match a with
    | ⟨0, _⟩ => exact lhs_batch _ _
    | ⟨1, _⟩ => exact lhs_seq _ _
    | ⟨2, _⟩ => exact (dims.lhsIdx_val_of_single rfl _ _).trans hk)
  have er : dims.rhsIdx i ((contrEquiv1 dims 4096 rfl rfl).symm k) = ix2 (i 2) k := funext fun a => Fin.ext (by
    match a with
    | ⟨0, _⟩ => exact rhs_row _ _
    | ⟨1, _⟩ => exact (dims.rhsIdx_val_of_single rfl _ _).trans hk)
  rw [el, er]
  rfl

/-- The bias repeated along the batch and sequence axes, at an entry, is the bias of the entry's output feature. -/
theorem bias_apply (b : FVec Ideal S4096 .f32) (i : S4x2048x4096.Idx) :
    broadcastInDim S4x2048x4096 ![0, 1, 2] bcast_S1x1x4096_S4x2048x4096_0_1_2 (broadcastInDim S1x1x4096 ![2] bcast_S4096_S1x1x4096_2 b) i
      = b (ix1 (i 2)) := by
  refine (broadcastInDim_apply _ bcast_S1x1x4096_S4x2048x4096_0_1_2 _ i (ix3 (0 : Fin 1) (0 : Fin 1) (i 2)) (fun a => ?_)).trans
    (broadcastInDim_apply _ bcast_S4096_S1x1x4096_2 b _ (ix1 (i 2)) (fun a => ?_))
  · match a with
    | ⟨0, _⟩ => show 0 = if (1 : Nat) = 1 then 0 else (i 0).val; rw [if_pos rfl]
    | ⟨1, _⟩ => show 0 = if (1 : Nat) = 1 then 0 else (i 1).val; rw [if_pos rfl]
    | ⟨2, _⟩ => show (i 2).val = if (4096 : Nat) = 1 then 0 else (i 2).val; rw [if_neg (by decide)]
  · match a with
    | ⟨0, _⟩ => show (i 2).val = if (4096 : Nat) = 1 then 0 else (i 2).val; rw [if_neg (by decide)]

/-- THE REFERENCE IS THE AFFINE LAYER of the input, the looked-up weight and the bias. -/
theorem result_eq (x : (⟨S4x2048x4096, .f32⟩ : BufTy).Contents (Elt Ideal)) (w : (⟨S4096x4096, .f32⟩ : BufTy).Contents (Elt Ideal))
    (b : (⟨S4096, .f32⟩ : BufTy).Contents (Elt Ideal)) :
    contractAddBias (F := Ideal) x w b = Cert.Affine.affine x w b := by
  funext i
  unfold contractAddBias Cert.Affine.affine
  rw [addf_apply, refold, contract_apply, bias_apply]

end Cert.ReferenceIdeal.RefAffine

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.BodyEntry.lean ====
/-
  What the kernel's body computes, at an entry of its output block.

  At one grid point the body holds a [1024, 4096] block of the input rows, a [512, 4096] block of weight rows and a
  [1, 512] block of the bias. It narrows the input block (the identity on the extended reals), transposes the weight
  block to [4096, 512], multiplies the two into a zero accumulator and adds the bias row to every row of the
  product. Entry (p, q) of the result is therefore

      (∑ k : Fin 4096, x (p, k) · w (q, k)) + bias (0, q):

  the transpose only swaps the two coordinates at which the weight block is read, the product into the zero word is
  the plain sum, and the broadcast reads the bias block's one row.
-/
import proofs.«175161_j19799799235325_1_alg».proof.Proof.Gen.KernelIdeal.Skeleton
import proofs.«175161_j19799799235325_1_alg».proof.Proof.LibPlainDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-- The transposed weight block at (k, q) is the weight block at (q, k). -/
theorem transposed_apply (w : FVec Ideal S512x4096 .bf16) (h : S512x4096.Transposes [1, 0] S4096x512) (k : Fin 4096) (q : Fin 512) :
    transpose S4096x512 [1, 0] w h (ix2 k q) = w (ix2 q k) :=
  transpose_apply [1, 0] w h (ix2 k q) (ix2 q k) (fun b => by
    match b with
    | ⟨0, _⟩ => rfl
    | ⟨1, _⟩ => rfl)

/-- The bias row broadcast to every row of the block, at (p, q), is the bias block at (0, q). -/
theorem bias_rows_apply (b : FVec Ideal S1x512 .f32) (h : S1x512.Broadcasts S1024x512) (p : Fin 1024) (q : Fin 512) :
    broadcastTo S1024x512 b h (ix2 p q) = b (ix2 0 q) :=
  broadcastTo_apply b h (ix2 p q) (ix2 0 q) (fun a => by
    match a with
    | ⟨0, _⟩ => show 0 = if (1 : Nat) = 1 then 0 else p.val; rw [if_pos rfl]
    | ⟨1, _⟩ => show q.val = if (512 : Nat) = 1 then 0 else q.val; rw [if_neg (by decide)])

/-- THE BODY AT AN ENTRY: row `p` of the input block against row `q` of the weight block, plus the bias of column `q`. -/
theorem pay_apply (x : Vec Ideal S1024x4096 .f32) (w : Vec Ideal S512x4096 .bf16) (b : Vec Ideal S1x512 .f32)
    (p : Fin 1024) (q : Fin 512) :
    k0_pay1 (F := Ideal) x w b (ix2 p q) = (∑ k : Fin 4096, x (ix2 p k) * w (ix2 q k)) + b (ix2 0 q) := by
  unfold k0_pay1
  simp only [shapeCast_self]
  rw [addf_apply, PlainDot.matmul_zero_apply dot_S1024x4096_S4096x512_S1024x512_1_0_0_1_n_n rfl none, bias_rows_apply]
  refine congrArg (· + b (ix2 0 q)) (Finset.sum_congr rfl fun k _ => ?_)
  exact congrArg (x (ix2 p k) * ·) (transposed_apply w _ k q)

end Cert.KernelIdeal.Body

end
-- ==== Proof.KernelBlocks.lean ====
/-
  From the kernel's blocks to its whole output array.

  The grid has 8 × 8 points. At point (i, j) the kernel is handed rows 1024·i … 1024·i + 1023 of the [8192, 4096]
  input, rows 512·j … 512·j + 511 of the [4096, 4096] weight, columns 512·j … 512·j + 511 of the [1, 4096] bias,
  and writes back the [1024, 512] block at block position (i, j) of the [8192, 4096] output. Entry (p, q) of that
  block is row p of the input block against row q of the weight block, plus the bias block's column q; put back
  at its place in the arrays, that is entry (r, o) = (1024·i + p, 512·j + q) of ONE function of the three arrays,

      rowsAgainstRows X W B (r, o) = (∑ k : Fin 4096, X (r, k) · W (o, k)) + B (0, o).

  The 64 output blocks tile the output array, so after the run the array is that function everywhere.
-/
import proofs.«175161_j19799799235325_1_alg».proof.Proof.Gen.KernelIdeal.Frame
import proofs.«175161_j19799799235325_1_alg».proof.Proof.BodyEntry
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Every row of `X` against every row of `W`, plus the bias row: the whole output as one function. -/
def rowsAgainstRows (X : S8192x4096.Idx → EReal) (W : S4096x4096.Idx → EReal) (B : S1x4096.Idx → EReal) : S8192x4096.Idx → EReal :=
  fun j => (∑ k : Fin 4096, X (ix2 (j 0) k) * W (ix2 (j 1) k)) + B (ix2 0 (j 1))

theorem zero_offsets : (![0, 0] : Fin 2 → Nat) = fun _ => 0 := funext fun a => by fin_cases a <;> rfl

/-- The printed index maps over the grid: the input block moves with the output block's row position and spans the
    whole contracted axis; the weight block and the bias block move with the output block's column position. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block position of the output is some point's. -/
theorem every_position : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- THE BLOCK ARITHMETIC, over any three arrays: at point `t`, row `p` of the input's block against row `q` of the
    weight's block plus column `q` of the bias's block — each read at its place in its array — is
    `rowsAgainstRows` of the arrays at the place of entry (p, q) of the output's block. -/
theorem block_entry (t : Fin cfg0.N) (X : S8192x4096.Idx → EReal) (W : S4096x4096.Idx → EReal) (B : S1x4096.Idx → EReal)
    (p : Fin 1024) (q : Fin 512) :
    (∑ k : Fin 4096, X (((cfg0.win 0).blk t).view.emb (ix2 p k)) * W (((cfg0.win 1).blk t).view.emb (ix2 q k)))
        + B (((cfg0.win 2).blk t).view.emb (ix2 0 q))
      = rowsAgainstRows X W B (((cfg0.win 3).blk t).view.emb (ix2 p q)) := by
  obtain ⟨e0, e1, e2, e3, e4, e5, -, -⟩ := block_positions t
  have hx : ∀ k : Fin 4096, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 4096 + 1 * k.val = k.val; omega
  have hw : ∀ k : Fin 4096, ((cfg0.win 1).blk t).view.emb (ix2 q k) = ix2 ((((cfg0.win 3).blk t).view.emb (ix2 p q)) 1) k := fun k => by
    funext a; apply Fin.ext
    match a with
    | ⟨0, _⟩ => show win0_1.index t (0 : Fin 2) * 512 + 1 * q.val = win0_3.index t (1 : Fin 2) * 512 + 1 * q.val; omega
    | ⟨1, _⟩ => show win0_1.index t (1 : Fin 2) * 4096 + 1 * k.val = k.val; omega
  have hb : ((cfg0.win 2).blk t).view.emb (ix2 0 q) = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega
  unfold rowsAgainstRows
  rw [hb]
  simp only [hx, hw]
  rfl

/-- The three arrays the region finds in its input windows, at their literal types: the input rows, the weight
    rows and the bias row — each named as its window names it, so that a block read and the array are one spelling. -/
abbrev inputRows (c : Dev nD) : S8192x4096.Idx → EReal := V m c (Pipeline.arrRef spec0 0)
abbrev weightRows (c : Dev nD) : S4096x4096.Idx → EReal := V m c (Pipeline.arrRef spec0 1)
abbrev biasRow (c : Dev nD) : S1x4096.Idx → EReal := V m c (Pipeline.arrRef spec0 2)

/-- Each input window's block at a point, read at an index of the block, is its array at the index's place in the
    array: a block is a window's array read through the block's rectangle. -/
theorem read_input (c : Dev nD) (t : Fin cfg0.N) (y : S1024x4096.Idx) :
    iblk m c 0 t y = inputRows m c (((cfg0.win 0).blk t).view.emb y) := by
  unfold iblk
  rw [View.read_apply, cast_eq]
theorem read_weight (c : Dev nD) (t : Fin cfg0.N) (y : S512x4096.Idx) :
    iblk m c 1 t y = weightRows m c (((cfg0.win 1).blk t).view.emb y) := by
  unfold iblk
  rw [View.read_apply, cast_eq]
theorem read_bias (c : Dev nD) (t : Fin cfg0.N) (y : S1x512.Idx) :
    iblk m c 2 t y = biasRow m c (((cfg0.win 2).blk t).view.emb y) := by
  unfold iblk
  rw [View.read_apply, cast_eq]

/-- WHAT POINT `t` WRITES BACK is block `t` of `rowsAgainstRows` of the three arrays as the region finds them. -/
theorem flushed_eq (c : Dev nD) (t : Fin cfg0.N) :
    (dats m 0 c).flushed 3 t
      = ((cfg0.win 3).blk t).view.read (Elt Ideal) (rowsAgainstRows (inputRows m c) (weightRows m c) (biasRow m c)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S512x4096) zero_offsets,
    View.ld_unit_zero (S := S1x512) zero_offsets]
  -- the body's result at entry (p, q) of the block, from the three arrays
  have entry : ∀ (p : Fin 1024) (q : Fin 512),
      k0_pay1 (F := Ideal) (iblk m c 0 t) (iblk m c 1 t) (iblk m c 2 t) (ix2 p q)
        = rowsAgainstRows (inputRows m c) (weightRows m c) (biasRow m c) (((cfg0.win 3).blk t).view.emb (ix2 p q)) := fun p q => by
    rw [Body.pay_apply]
    simp only [read_input, read_weight, read_bias]
    exact block_entry t (inputRows m c) (weightRows m c) (biasRow m c) p q
  -- from here on the body's result is just a [1024, 512] array with that property
  generalize k0_pay1 (F := Ideal) (iblk m c 0 t) (iblk m c 1 t) (iblk m c 2 t) = P at entry ⊢
  funext y
  rw [View.read_apply]
  obtain ⟨p, q, rfl⟩ : ∃ (p : Fin 1024) (q : Fin 512), y = ix2 p q := ⟨y 0, y 1, eq_ix2 y⟩
  show P (ix2 p q) = _
  exact entry p q

/-- An index of the output array is in point `t`'s block iff each coordinate is in the block's range on its axis. -/
theorem mem_block (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- The output blocks tile the output array: every index is in the block of the point at block position
    (row / 1024, column / 512), and every point writes its block back. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_position ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE OUTPUT ARRAY after the run: every row of the input array against every row of the weight array, plus the
    bias row — of the three arrays as the region finds them. -/
theorem output_array (c : Dev nD) :
    (dats m 0 c).arrAt 3 cfg0.N = rowsAgainstRows (inputRows m c) (weightRows m c) (biasRow m c) :=
  (dats m 0 c).arrAt_eq_of_cover 3 _ (fun t _ => flushed_eq m c t) covered

end Cert.KernelIdeal.Blocks

end
-- ==== Proof.KernelEntry.lean ====
/-
  What the kernel's region finds in its three input arrays.

  Before the region the kernel's host program runs the codebook lookup (the same operations as the reference's), then
  narrows the looked-up weight to bf16 (the identity on the extended reals), folds the [4, 2048, 4096] input to
  [8192, 4096] rows, and gives the [4096] bias a leading unit axis. So the region finds

  * in its input window's array, the input folded to rows;
  * in its weight window's array, the looked-up weight `Lookup.weight` of the codebook and index arguments, narrowed;
  * in its bias window's array, the bias as one row.

  The line is read back in stretches — the index chain, the range test, the pick, and the three operations that
  follow the lookup — as the reference's is.
-/
import proofs.«175161_j19799799235325_1_alg».proof.Proof.Gen.KernelIdeal.Frame
import proofs.«175161_j19799799235325_1_alg».proof.Proof.Lookup
import proofs.«175161_j19799799235325_1_alg».proof.Proof.LibTypedRef

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The operations that wrap the indices and give them their trailing unit axis. -/
abbrev indexOps : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4096x4096, .i32⟩) main_call0_v0) (broadcastInDim S4096x4096 ![] bcast_S_S4096x4096),
    TRef.binary (TRef.of (T := ⟨S4096x4096, .i32⟩) main_arg3) (TRef.of (T := ⟨S4096x4096, .i32⟩) main_call0_v0) (TRef.of (T := ⟨S4096x4096, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S4096x4096, .i32⟩) main_call0_v2) (broadcastInDim S4096x4096 ![] bcast_S_S4096x4096),
    TRef.binary (TRef.of (T := ⟨S4096x4096, .i32⟩) main_arg3) (TRef.of (T := ⟨S4096x4096, .i32⟩) main_call0_v2) (TRef.of (T := ⟨S4096x4096, .i32⟩) main_call0_v3) addi,
    TRef.ternary (TRef.of (T := ⟨S4096x4096, .i1⟩) main_call0_v1) (TRef.of (T := ⟨S4096x4096, .i32⟩) main_call0_v3) (TRef.of (T := ⟨S4096x4096, .i32⟩) main_arg3) (TRef.of (T := ⟨S4096x4096, .i32⟩) main_call0_v4) select,
    TRef.reshape (TRef.of (T := ⟨S4096x4096, .i32⟩) main_call0_v4) (TRef.of (T := ⟨S4096x4096x1, .i32⟩) main_call0_v5) rfl shapeCasts_S4096x4096_S4096x4096x1 ]
/-- The operations that test the wrapped indices' range. -/
abbrev rangeOps : List (HloOp τ sig (Elt F)) :=
  [ TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S4096x4096x1, .i32⟩) main_call0_v6) (broadcastInDim S4096x4096x1 ![] bcast_S_S4096x4096x1),
    TRef.binary (TRef.of (T := ⟨S4096x4096x1, .i32⟩) main_call0_v5) (TRef.of (T := ⟨S4096x4096x1, .i32⟩) main_call0_v6) (TRef.of (T := ⟨S4096x4096x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S4096x4096x1, .i32⟩) main_call0_v9) (broadcastInDim S4096x4096x1 ![0, 1, 2] bcast_S1x1x1_S4096x4096x1_0_1_2),
    TRef.binary (TRef.of (T := ⟨S4096x4096x1, .i32⟩) main_call0_v5) (TRef.of (T := ⟨S4096x4096x1, .i32⟩) main_call0_v9) (TRef.of (T := ⟨S4096x4096x1, .i1⟩) main_call0_v10) (cmpi .sle),
    TRef.binary (TRef.of (T := ⟨S4096x4096x1, .i1⟩) main_call0_v7) (TRef.of (T := ⟨S4096x4096x1, .i1⟩) main_call0_v10) (TRef.of (T := ⟨S4096x4096x1, .i1⟩) main_call0_v11) andi,
    TRef.nullary (TRef.of (T := ⟨S_, .i1⟩) main_call0_c_3) (constantI S_ 1 1#1),
    TRef.binary (TRef.of (T := ⟨S4096x4096x1, .i1⟩) main_call0_v11) (TRef.of (T := ⟨S_, .i1⟩) main_call0_c_3) (TRef.of (T := ⟨S4096x4096, .i1⟩) main_call0_v12) (fun x v => Host.reduce IntOp.andi x v reducesTo_S4096x4096x1_S4096x4096_d2 h_S_) ]
/-- The lookup itself and the choice between its value and the quiet-NaN word. -/
abbrev pickOps : List (HloOp τ sig (Elt F)) :=
  [ TRef.binary (TRef.of (T := ⟨S4096x256, .f32⟩) main_arg1) (TRef.of (T := ⟨S4096x4096x1, .i32⟩) main_call0_v5) (TRef.of (T := ⟨S4096x4096, .f32⟩) main_call0_v13) (fun x i => Host.gather gather_S4096x256_S4096x4096x1_S4096x4096_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S4096x4096, .f32⟩) main_call0_v14) (broadcastInDim S4096x4096 ![] bcast_S_S4096x4096),
    TRef.ternary (TRef.of (T := ⟨S4096x4096, .i1⟩) main_call0_v12) (TRef.of (T := ⟨S4096x4096, .f32⟩) main_call0_v13) (TRef.of (T := ⟨S4096x4096, .f32⟩) main_call0_v14) (TRef.of (T := ⟨S4096x4096, .f32⟩) main_v0) select ]

/-- The host operations before the region are those three stretches and then the three operations after the lookup. -/
theorem prefix_eq : (List.flatten [hostOps0, hostOps0_1] : List (HloOp τ sig (Elt F))) = indexOps ++ (rangeOps ++ (pickOps ++ hostOps0_1)) := rfl

/-! ## The stretches, each read back on its own -/

theorem index_col (V : Valuation τ sig (Elt F)) :
    after indexOps V (Proc.devRef .tc main_call0_v5) = Cert.ReferenceIdeal.Lookup.wrappedCol (F := F) (V (Proc.devRef .tc main_arg3)) := by
  after_results_simp; rfl
theorem index_arg0 (V : Valuation τ sig (Elt F)) : after indexOps V (Proc.devRef .tc main_arg0) = V (Proc.devRef .tc main_arg0) := by after_results_simp
theorem index_arg1 (V : Valuation τ sig (Elt F)) : after indexOps V (Proc.devRef .tc main_arg1) = V (Proc.devRef .tc main_arg1) := by after_results_simp
theorem index_arg2 (V : Valuation τ sig (Elt F)) : after indexOps V (Proc.devRef .tc main_arg2) = V (Proc.devRef .tc main_arg2) := by after_results_simp

/-- A typed reference's move of the wrapped indices, the codebook or the range test from the buffer's type is the identity. -/
theorem col_ofBuf (W : (⟨S4096x4096x1, .i32⟩ : BufTy).Contents (Elt F)) :
    (TRef.of (T := ⟨S4096x4096x1, .i32⟩) main_call0_v5).ofBuf W = W := rfl
theorem codebook_ofBuf (W : (⟨S4096x256, .f32⟩ : BufTy).Contents (Elt F)) :
    (TRef.of (T := ⟨S4096x256, .f32⟩) main_arg1).ofBuf W = W := rfl
theorem ok_ofBuf (W : (⟨S4096x4096, .i1⟩ : BufTy).Contents (Elt F)) :
    (TRef.of (T := ⟨S4096x4096, .i1⟩) main_call0_v12).ofBuf W = W := rfl

theorem range_ok (V : Valuation τ sig (Elt F)) :
    after rangeOps V (Proc.devRef .tc main_call0_v12) = Cert.ReferenceIdeal.Lookup.inRange (F := F) (V (Proc.devRef .tc main_call0_v5)) := by
  after_results_simp
  simp only [TypedRef.ofBuf_toBuf]
  rw [col_ofBuf]
  unfold Cert.ReferenceIdeal.Lookup.inRange
  exact TypedRef.toBuf_eq _ _ _ HEq.rfl
theorem range_col (V : Valuation τ sig (Elt F)) : after rangeOps V (Proc.devRef .tc main_call0_v5) = V (Proc.devRef .tc main_call0_v5) := by after_results_simp
theorem range_arg0 (V : Valuation τ sig (Elt F)) : after rangeOps V (Proc.devRef .tc main_arg0) = V (Proc.devRef .tc main_arg0) := by after_results_simp
theorem range_arg1 (V : Valuation τ sig (Elt F)) : after rangeOps V (Proc.devRef .tc main_arg1) = V (Proc.devRef .tc main_arg1) := by after_results_simp
theorem range_arg2 (V : Valuation τ sig (Elt F)) : after rangeOps V (Proc.devRef .tc main_arg2) = V (Proc.devRef .tc main_arg2) := by after_results_simp

theorem pick_weight (V : Valuation τ sig (Elt F)) :
    after pickOps V (Proc.devRef .tc main_v0)
      = Cert.ReferenceIdeal.Lookup.pick (F := F) (V (Proc.devRef .tc main_arg1)) (V (Proc.devRef .tc main_call0_v5)) (V (Proc.devRef .tc main_call0_v12)) := by
  after_results_simp
  simp only [TypedRef.ofBuf_toBuf]
  rw [col_ofBuf, codebook_ofBuf, ok_ofBuf]
  unfold Cert.ReferenceIdeal.Lookup.pick
  exact TypedRef.toBuf_eq _ _ _ HEq.rfl
theorem pick_arg0 (V : Valuation τ sig (Elt F)) : after pickOps V (Proc.devRef .tc main_arg0) = V (Proc.devRef .tc main_arg0) := by after_results_simp
theorem pick_arg2 (V : Valuation τ sig (Elt F)) : after pickOps V (Proc.devRef .tc main_arg2) = V (Proc.devRef .tc main_arg2) := by after_results_simp

/-- After the lookup: the weight narrowed, the input folded to rows, the bias as one row. -/
theorem rest_weight (V : Valuation τ sig (Elt F)) :
    after hostOps0_1 V (Proc.devRef .tc main_v1) = truncf .bf16 (V (Proc.devRef .tc main_v0)) bitsLt_bf16_f32 := by
  after_results_simp
theorem rest_input (V : Valuation τ sig (Elt F)) :
    after hostOps0_1 V (Proc.devRef .tc main_v2) = shapeCast S8192x4096 (V (Proc.devRef .tc main_arg0)) shapeCasts_S4x2048x4096_S8192x4096 := by
  after_results_simp; rfl
theorem rest_bias (V : Valuation τ sig (Elt F)) :
    after hostOps0_1 V (Proc.devRef .tc main_v3) = shapeCast S1x4096 (V (Proc.devRef .tc main_arg2)) shapeCasts_S4096_S1x4096 := by
  after_results_simp; rfl

/-! ## What the region finds -/

variable (m : (ℓ : Loc nD τ sig) → Buf (Elt F) ℓ)

/-- The weight window's array: the looked-up weight of the codebook and index arguments, narrowed. -/
theorem weight_array (c : Dev nD) :
    V m c main_v1 = truncf .bf16 (Cert.ReferenceIdeal.Lookup.weight (F := F) (m ((c : Thread nD τ).loc main_arg1)) (m ((c : Thread nD τ).loc main_arg3))) bitsLt_bf16_f32 := by
  show after (List.flatten [hostOps0, hostOps0_1]) (fun b => m (c, b)) (Proc.devRef .tc main_v1) = _
  rw [prefix_eq, TypedRef.after_append, TypedRef.after_append, TypedRef.after_append, rest_weight, pick_weight,
    range_ok, range_col, range_arg1, index_col, index_arg1]
  rfl

/-- The input window's array: the input folded to rows. -/
theorem input_array (c : Dev nD) :
    V m c main_v2 = shapeCast S8192x4096 (m ((c : Thread nD τ).loc main_arg0)) shapeCasts_S4x2048x4096_S8192x4096 := by
  show after (List.flatten [hostOps0, hostOps0_1]) (fun b => m (c, b)) (Proc.devRef .tc main_v2) = _
  rw [prefix_eq, TypedRef.after_append, TypedRef.after_append, TypedRef.after_append, rest_input, pick_arg0, range_arg0, index_arg0]

/-- The bias window's array: the bias as one row. -/
theorem bias_array (c : Dev nD) :
    V m c main_v3 = shapeCast S1x4096 (m ((c : Thread nD τ).loc main_arg2)) shapeCasts_S4096_S1x4096 := by
  show after (List.flatten [hostOps0, hostOps0_1]) (fun b => m (c, b)) (Proc.devRef .tc main_v3) = _
  rw [prefix_eq, TypedRef.after_append, TypedRef.after_append, TypedRef.after_append, rest_bias, pick_arg2, range_arg2, index_arg2]

/-- The contents the region finds at a reference depend on the reference only: at two spellings of one reference
    they are the same (as contents of buffers whose types are then the same too). -/
theorem found_congr (c : Dev nD) {r r' : Ref sig .tc} (h : r = r') : HEq (V m c r) (V m c r') := by
  subst h; rfl

/-- So what is known of the contents at one spelling holds at the other. -/
theorem found_eq (c : Dev nD) {r r' : Ref sig .tc} (h : r = r') {X : Buf (Elt F) ((c : Thread nD τ).loc r')}
    (hX : V m c r' = X) : HEq (V m c r) X := by
  subst h; exact heq_of_eq hX

end Cert.KernelIdeal.Entry

end
-- ==== Proof.KernelResult.lean ====
/-
  The kernel's result is the affine layer of its arguments.

  After the region the kernel's host program folds the [8192, 4096] output array back to [4, 2048, 4096]. Row
  r = 2048·b + s of the output array is row (b, s) of the result, and row r of the input folded to rows is row (b, s)
  of the input; the bias as one row, read at column o, is the bias at o; narrowing the weight changes nothing on the
  extended reals. So entry (b, s, o) of the result is

      (∑ k : Fin 4096, x (b, s, k) · w (o, k)) + bias o

  with `w` the looked-up weight: the affine layer.
-/
import proofs.«175161_j19799799235325_1_alg».proof.Proof.KernelBlocks
import proofs.«175161_j19799799235325_1_alg».proof.Proof.KernelEntry
import proofs.«175161_j19799799235325_1_alg».proof.Proof.Spec

noncomputable section

namespace Cert.KernelIdeal.Result

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

/-- Narrowing to bf16 is the identity on the extended reals. -/
theorem narrow_id (w : FVec Ideal S4096x4096 .f32) (h : FTy.bits .bf16 < FTy.bits .f32) : truncf .bf16 w h = w := rfl

/-- THE FOLDS, over any input, weight and bias: the output array of the input folded to rows, the weight and the
    bias as one row, folded back to [4, 2048, 4096], is the affine layer. -/
theorem fold_rows (x : FVec Ideal S4x2048x4096 .f32) (W : S4096x4096.Idx → EReal) (b : FVec Ideal S4096 .f32)
    (h1 : S4x2048x4096.ShapeCasts S8192x4096) (h2 : S4096.ShapeCasts S1x4096) (h3 : S8192x4096.ShapeCasts S4x2048x4096) :
    shapeCast S4x2048x4096 (Blocks.rowsAgainstRows (shapeCast S8192x4096 x h1) W (shapeCast S1x4096 b h2)) h3
      = Cert.Affine.affine x W b := by
  funext i
  have hi0 : (i 0).val < 4 := (i 0).isLt
  have hi1 : (i 1).val < 2048 := (i 1).isLt
  have hi2 : (i 2).val < 4096 := (i 2).isLt
  rw [shapeCast_apply _ h3 i (ix2 (⟨(i 0).val * 2048 + (i 1).val, by omega⟩ : Fin 8192) (i 2))
    (by rewrite [Shape.rowMajor_val_two, Shape.rowMajor_val_three]; rfl)]
  unfold Blocks.rowsAgainstRows Cert.Affine.affine
  show (∑ k : Fin 4096, shapeCast S8192x4096 x h1 (ix2 (⟨(i 0).val * 2048 + (i 1).val, by omega⟩ : Fin 8192) k) * W (ix2 (i 2) k))
      + shapeCast S1x4096 b h2 (ix2 (0 : Fin 1) (i 2)) = _
  rw [shapeCast_apply b h2 (ix2 (0 : Fin 1) (i 2)) (ix1 (i 2))
    (by rewrite [Shape.rowMajor_val_one, Shape.rowMajor_val_two]; show (i 2).val = 0 * 4096 + (i 2).val; omega)]
  refine congrArg (· + b (ix1 (i 2))) (Finset.sum_congr rfl fun k _ => ?_)
  rw [shapeCast_apply x h1 (ix2 (⟨(i 0).val * 2048 + (i 1).val, by omega⟩ : Fin 8192) k) (ix3 (i 0) (i 1) k)
    (by rewrite [Shape.rowMajor_val_three, Shape.rowMajor_val_two]; rfl)]

variable (m : (ℓ : Loc nD τ sig) → Buf (Elt Ideal) ℓ) (ρ : Dev nD → PrngReg)

/-- After the region the result buffer holds the output array folded back to [4, 2048, 4096]. -/
theorem tail_value (c : Dev nD) :
    Pipeline.afterTail₀ cfgs (dats m) 0 (V0 m) [hostOps1] c main_v5
      = shapeCast S4x2048x4096 ((dats m 0 c).arrAt 3 cfg0.N) shapeCasts_S8192x4096_S4x2048x4096 := by
  unfold Pipeline.afterTail₀
  show StableHlo.after hostOps1 _ (Proc.devRef .tc main_v5) = _
  after_results
  -- the output window's array, as the lines after the region find it, is what the region left in it
  have hout : Pipeline.withArrays (cfgs 0).spec c (V0 m c) (fun w => (dats m 0 c).arrAt w (cfgs 0).N) (Proc.devRef .tc main_v4)
      = (dats m 0 c).arrAt 3 cfg0.N := Pipeline.withArrays_arr spec0 launch0.win.arr_inj c _ _ 3
  rw [hout]
  generalize (dats m 0 c).arrAt 3 cfg0.N = A
  rfl

/-- THE KERNEL'S RESULT: the affine layer of the input, the looked-up weight and the bias. -/
theorem result_value (c : Dev nD) :
    Pipeline.afterTail₀ cfgs (dats m) 0 (V0 m) [hostOps1] c main_v5
      = Cert.Affine.affine (m ((c : Thread nD τ).loc main_arg0))
          (Cert.ReferenceIdeal.Lookup.weight (F := Ideal) (m ((c : Thread nD τ).loc main_arg1)) (m ((c : Thread nD τ).loc main_arg3)))
          (m ((c : Thread nD τ).loc main_arg2)) := by
  -- each window's array is a named buffer of the program (the window's own spelling of it and the name are one reference)
  have ex : Blocks.inputRows m c = shapeCast S8192x4096 (m ((c : Thread nD τ).loc main_arg0)) shapeCasts_S4x2048x4096_S8192x4096 :=
    eq_of_heq (Entry.found_eq (F := Ideal) m c (show Pipeline.arrRef spec0 0 = main_v2 from rfl) (Entry.input_array (F := Ideal) m c))
  have ew : Blocks.weightRows m c = truncf (F := Ideal) .bf16 (Cert.ReferenceIdeal.Lookup.weight (F := Ideal) (m ((c : Thread nD τ).loc main_arg1)) (m ((c : Thread nD τ).loc main_arg3))) bitsLt_bf16_f32 :=
    eq_of_heq (Entry.found_eq (F := Ideal) m c (show Pipeline.arrRef spec0 1 = main_v1 from rfl)
      (X := truncf (F := Ideal) .bf16 (Cert.ReferenceIdeal.Lookup.weight (F := Ideal) (m ((c : Thread nD τ).loc main_arg1)) (m ((c : Thread nD τ).loc main_arg3))) bitsLt_bf16_f32)
      (Entry.weight_array (F := Ideal) m c))
  have eb : Blocks.biasRow m c = shapeCast S1x4096 (m ((c : Thread nD τ).loc main_arg2)) shapeCasts_S4096_S1x4096 :=
    eq_of_heq (Entry.found_eq (F := Ideal) m c (show Pipeline.arrRef spec0 2 = main_v3 from rfl) (Entry.bias_array (F := Ideal) m c))
  rw [tail_value, Blocks.output_array, ex, ew, eb, narrow_id]
  exact fold_rows _ _ _ _ _ _

/-- THE RUN: every weakly fair execution of the kernel's program terminates with the result at the affine layer of
    the arguments, and the arguments unchanged. -/
theorem run : θ_run defs (onTc (τ := τ) (main (F := Ideal))) ⟨m, fun _ => 0, ρ⟩ fun r => ∀ c : Dev nD,
      r.2.mem ((c.tc : Thread nD τ).loc main_v5)
        = Cert.Affine.affine (m ((c.tc : Thread nD τ).loc main_arg0))
            (Cert.ReferenceIdeal.Lookup.weight (F := Ideal) (m ((c.tc : Thread nD τ).loc main_arg1)) (m ((c.tc : Thread nD τ).loc main_arg3)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A linear layer whose weight is looked up in a codebook: the kernel against its reference, on the extended reals.

  Both programs build the [4096, 4096] weight `w` by the same per-row lookup of the index matrix in the codebook
  (Proof/Lookup.lean names it once; nothing here opens it) and then compute, for the input `x` of shape
  [4, 2048, 4096] and the bias `b`,

      out (b, s, o) = (∑ k : Fin 4096, x (b, s, k) · w (o, k)) + bias o        (Proof/Spec.lean, `Affine.affine`).

  The reference contracts the input's last axis with the weight's second axis in one host operation and adds the
  broadcast bias (Proof/RefRun.lean: its run; Proof/RefAffine.lean: that value is `affine`). The kernel folds the input
  to [8192, 4096] rows, narrows the weight to bf16 — the identity on the extended reals — and walks an 8 × 8 grid: at
  each point a [1024, 4096] block of rows meets a [512, 4096] block of weight rows, transposed inside the body, in one
  product over the whole contracted axis into a zero accumulator, and the bias block is added to every row
  (Proof/BodyEntry.lean: the body at an entry; Proof/KernelEntry.lean: the arrays the region finds;
  Proof/KernelBlocks.lean: the 64 blocks tile the output array; Proof/KernelResult.lean: folded back, the result is
  `affine`). The two sums are the same sum, term by term and in the same order, so no law of the extended reals beyond
  reading each side at an entry is needed, and the precondition (finite inputs) is never used.

  The idealization rewrote no operation, so there is nothing to preserve; the kernel's two frames are the generated
  ones, and the reference's frame is its run with the result dropped.
-/
import proofs.«175161_j19799799235325_1_alg».proof.Defs
import proofs.«175161_j19799799235325_1_alg».proof.Proof.Gen.Kernel
import proofs.«175161_j19799799235325_1_alg».proof.Proof.Gen.Kernel.Frame
import proofs.«175161_j19799799235325_1_alg».proof.Proof.Gen.KernelIdeal
import proofs.«175161_j19799799235325_1_alg».proof.Proof.Gen.KernelIdeal.Frame
import proofs.«175161_j19799799235325_1_alg».proof.Proof.Gen.ReferenceIdeal
import proofs.«175161_j19799799235325_1_alg».proof.Proof.Gen.Pre_finite_inputs
import proofs.«175161_j19799799235325_1_alg».proof.Proof.RefRun
import proofs.«175161_j19799799235325_1_alg».proof.Proof.RefAffine
import proofs.«175161_j19799799235325_1_alg».proof.Proof.KernelResult

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the four arguments both programs end at the affine layer of the input, the looked-up
    weight and the bias: the kernel by `Result.run`, the reference by its run and `RefAffine.result_eq`. -/
theorem algebraic : Cert.algebraic_KernelIdeal_ReferenceIdeal := by
  intro m ρ m' ρ' _ hagree
  refine ⟨fun c => Cert.Affine.affine (m ((c.tc : Thread Cert.KernelIdeal.nD Cert.KernelIdeal.τ).loc Cert.KernelIdeal.main_arg0))
      (Cert.ReferenceIdeal.Lookup.weight (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefAffine.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
